-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x8192 : Shape := ⟨2, ![4096, 8192]⟩
abbrev S1x16 : Shape := ⟨2, ![1, 16]⟩
abbrev S_ : Shape := ⟨0, ![]⟩

class Facts : Prop where
  bcast_S_S4096x8192 : S_.BroadcastsInDim S4096x8192 (![] : Fin 0 → Fin S4096x8192.rank)
  reducesTo_S4096x8192_S_d0_1 : S4096x8192.ReducesTo [0, 1] S_
  h_S_ : 0 < S_.numel
  bcast_S_S1x16 : S_.BroadcastsInDim S1x16 (![] : Fin 0 → Fin S1x16.rank)
  reducesTo_S1x16_S_d0_1 : S1x16.ReducesTo [0, 1] S_

variable [Facts]

def fn {F : FTy → Type} [FloatOps F] (main_arg0 : FVec F S4096x8192 .f32) (main_arg1 : FVec F S1x16 .f32) : IVec S_ 1 :=
  let main_v0 : FVec F S4096x8192 .f32 := Host.absf main_arg0
  let main_cst : FVec F S_ .f32 := constant S_ .f32 0x7F800000#32
  let main_v1 : FVec F S4096x8192 .f32 := broadcastInDim S4096x8192 ![] bcast_S_S4096x8192 main_cst
  let main_v2 : IVec S4096x8192 1 := cmpf .olt main_v0 main_v1
  let main_c : IVec S_ 1 := constantI S_ 1 1#1
  let main_v3 : IVec S_ 1 := (fun x v => Host.reduce IntOp.andi x v reducesTo_S4096x8192_S_d0_1 h_S_) main_v2 main_c
  let main_v4 : FVec F S1x16 .f32 := Host.absf main_arg1
  let main_cst_0 : FVec F S_ .f32 := constant S_ .f32 0x7F800000#32
  let main_v5 : FVec F S1x16 .f32 := broadcastInDim S1x16 ![] bcast_S_S1x16 main_cst_0
  let main_v6 : IVec S1x16 1 := cmpf .olt main_v4 main_v5
  let main_c_1 : IVec S_ 1 := constantI S_ 1 1#1
  let main_v7 : IVec S_ 1 := (fun x v => Host.reduce IntOp.andi x v reducesTo_S1x16_S_d0_1 h_S_) main_v6 main_c_1
  let main_v8 : IVec S_ 1 := andi main_v3 main_v7
  main_v8
-- ==== Kernel.lean ====
abbrev S4096x8192 : Shape := ⟨2, ![4096, 8192]⟩
abbrev S1x16 : Shape := ⟨2, ![1, 16]⟩
abbrev S4096x2048x4 : Shape := ⟨3, ![4096, 2048, 4]⟩
abbrev S4x4096x2048 : Shape := ⟨3, ![4, 4096, 2048]⟩
abbrev S4096x2045 : Shape := ⟨2, ![4096, 2045]⟩
abbrev S4x256x2048 : Shape := ⟨3, ![4, 256, 2048]⟩
abbrev S256x2045 : Shape := ⟨2, ![256, 2045]⟩
abbrev S1x1 : Shape := ⟨2, ![1, 1]⟩
abbrev S1x256x2045 : Shape := ⟨3, ![1, 256, 2045]⟩

abbrev nBuf : Space → Nat
  | .hbm => 5
  | .vmem => 5
  | .smem => 0
  | _ => 0

abbrev bufTy : (tb : Table) → Fin (tcTables nBuf tb) → BufTy
  | .hbm, ⟨0, _⟩ => ⟨S4096x8192, .f32⟩
  | .hbm, ⟨1, _⟩ => ⟨S1x16, .f32⟩
  | .hbm, ⟨2, _⟩ => ⟨S4096x2048x4, .f32⟩
  | .hbm, ⟨3, _⟩ => ⟨S4x4096x2048, .f32⟩
  | .hbm, ⟨4, _⟩ => ⟨S4096x2045, .f32⟩
  | .local _ .vmem, ⟨0, _⟩ => ⟨S4x256x2048, .f32⟩
  | .local _ .vmem, ⟨1, _⟩ => ⟨S4x256x2048, .f32⟩
  | .local _ .vmem, ⟨2, _⟩ => ⟨S1x16, .f32⟩
  | .local _ .vmem, ⟨3, _⟩ => ⟨S256x2045, .f32⟩
  | .local _ .vmem, ⟨4, _⟩ => ⟨S256x2045, .f32⟩
  | _, _ => ⟨S4096x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4x256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2045 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  shapeCasts_S4096x8192_S4096x2048x4 : S4096x8192.ShapeCasts S4096x2048x4
  transposes_S4096x2048x4_S4x4096x2048_2_0_1 : S4096x2048x4.Transposes [2, 0, 1] S4x4096x2048
  inb_S1x16_S1x16_0_0 : ∀ a, (![0, 0] : Fin 2 → Nat) a + S1x16.size a ≤ S1x16.size a
  h_S1x16 : 0 < S1x16.numel
  slices_S1x16_o0_0_S1x1 : S1x16.Slices ![0, 0] S1x1
  inpos_S1x1_p0_0 : ∀ a, (![0, 0] : Fin 2 → Nat) a < S1x1.size a
  inb_S4x256x2048_S1x256x2045_0_0_0 : ∀ a, (![0, 0, 0] : Fin 3 → Nat) a + S1x256x2045.size a ≤ S4x256x2048.size a
  h_S1x256x2045 : 0 < S1x256x2045.numel
  shapeCasts_S1x256x2045_S256x2045 : S1x256x2045.ShapeCasts S256x2045
  slices_S1x16_o0_1_S1x1 : S1x16.Slices ![0, 1] S1x1
  inb_S4x256x2048_S1x256x2045_1_0_0 : ∀ a, (![1, 0, 0] : Fin 3 → Nat) a + S1x256x2045.size a ≤ S4x256x2048.size a
  slices_S1x16_o0_2_S1x1 : S1x16.Slices ![0, 2] S1x1
  inb_S4x256x2048_S1x256x2045_2_0_0 : ∀ a, (![2, 0, 0] : Fin 3 → Nat) a + S1x256x2045.size a ≤ S4x256x2048.size a
  slices_S1x16_o0_3_S1x1 : S1x16.Slices ![0, 3] S1x1
  inb_S4x256x2048_S1x256x2045_3_0_0 : ∀ a, (![3, 0, 0] : Fin 3 → Nat) a + S1x256x2045.size a ≤ S4x256x2048.size a
  slices_S1x16_o0_4_S1x1 : S1x16.Slices ![0, 4] S1x1
  inb_S4x256x2048_S1x256x2045_0_0_1 : ∀ a, (![0, 0, 1] : Fin 3 → Nat) a + S1x256x2045.size a ≤ S4x256x2048.size a
  slices_S1x16_o0_5_S1x1 : S1x16.Slices ![0, 5] S1x1
  inb_S4x256x2048_S1x256x2045_1_0_1 : ∀ a, (![1, 0, 1] : Fin 3 → Nat) a + S1x256x2045.size a ≤ S4x256x2048.size a
  slices_S1x16_o0_6_S1x1 : S1x16.Slices ![0, 6] S1x1
  inb_S4x256x2048_S1x256x2045_2_0_1 : ∀ a, (![2, 0, 1] : Fin 3 → Nat) a + S1x256x2045.size a ≤ S4x256x2048.size a
  slices_S1x16_o0_7_S1x1 : S1x16.Slices ![0, 7] S1x1
  inb_S4x256x2048_S1x256x2045_3_0_1 : ∀ a, (![3, 0, 1] : Fin 3 → Nat) a + S1x256x2045.size a ≤ S4x256x2048.size a
  slices_S1x16_o0_8_S1x1 : S1x16.Slices ![0, 8] S1x1
  inb_S4x256x2048_S1x256x2045_0_0_2 : ∀ a, (![0, 0, 2] : Fin 3 → Nat) a + S1x256x2045.size a ≤ S4x256x2048.size a
  slices_S1x16_o0_9_S1x1 : S1x16.Slices ![0, 9] S1x1
  inb_S4x256x2048_S1x256x2045_1_0_2 : ∀ a, (![1, 0, 2] : Fin 3 → Nat) a + S1x256x2045.size a ≤ S4x256x2048.size a
  slices_S1x16_o0_10_S1x1 : S1x16.Slices ![0, 10] S1x1
  inb_S4x256x2048_S1x256x2045_2_0_2 : ∀ a, (![2, 0, 2] : Fin 3 → Nat) a + S1x256x2045.size a ≤ S4x256x2048.size a
  slices_S1x16_o0_11_S1x1 : S1x16.Slices ![0, 11] S1x1
  inb_S4x256x2048_S1x256x2045_3_0_2 : ∀ a, (![3, 0, 2] : Fin 3 → Nat) a + S1x256x2045.size a ≤ S4x256x2048.size a
  slices_S1x16_o0_12_S1x1 : S1x16.Slices ![0, 12] S1x1
  inb_S4x256x2048_S1x256x2045_0_0_3 : ∀ a, (![0, 0, 3] : Fin 3 → Nat) a + S1x256x2045.size a ≤ S4x256x2048.size a
  slices_S1x16_o0_13_S1x1 : S1x16.Slices ![0, 13] S1x1
  inb_S4x256x2048_S1x256x2045_1_0_3 : ∀ a, (![1, 0, 3] : Fin 3 → Nat) a + S1x256x2045.size a ≤ S4x256x2048.size a
  slices_S1x16_o0_14_S1x1 : S1x16.Slices ![0, 14] S1x1
  inb_S4x256x2048_S1x256x2045_2_0_3 : ∀ a, (![2, 0, 3] : Fin 3 → Nat) a + S1x256x2045.size a ≤ S4x256x2048.size a
  slices_S1x16_o0_15_S1x1 : S1x16.Slices ![0, 15] S1x1
  inb_S4x256x2048_S1x256x2045_3_0_3 : ∀ a, (![3, 0, 3] : Fin 3 → Nat) a + S1x256x2045.size a ≤ S4x256x2048.size a
  inb_S256x2045_S256x2045_0_0 : ∀ a, (![0, 0] : Fin 2 → Nat) a + S256x2045.size a ≤ S256x2045.size a
  h_S256x2045 : 0 < S256x2045.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4x256x2048.size a ≤ S4x4096x2048.size a
  hwx0_0 : ∀ i : grid0.Coords, EltTy.bits .f32 = 32 ∨ (Rect.block (s := S4x4096x2048) S4x256x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x16.size a ≤ S1x16.size a
  hwx0_1 : ∀ i : grid0.Coords, EltTy.bits .f32 = 32 ∨ (Rect.block (s := S1x16) S1x16.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x2045.size a ≤ S4096x2045.size a
  hwx0_2 : ∀ i : grid0.Coords, EltTy.bits .f32 = 32 ∨ (Rect.block (s := S4096x2045) S256x2045.size (cc0_transform_2 i) (hinb0_2 i)).WholeWords (EltTy.packing .f32)

variable [Facts₀]

abbrev win0_0 : Pipeline.Window sig grid0 :=
  Pipeline.Window.ofSpec (Memref.whole main_v1) S4x256x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x16.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S256x2045.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S4096x8192 : Shape := ⟨2, ![4096, 8192]⟩
abbrev S1x16 : Shape := ⟨2, ![1, 16]⟩
abbrev S2045 : Shape := ⟨1, ![2045]⟩
abbrev S_ : Shape := ⟨0, ![]⟩
abbrev S2045x1 : Shape := ⟨2, ![2045, 1]⟩
abbrev S16 : Shape := ⟨1, ![16]⟩
abbrev S2045x16 : Shape := ⟨2, ![2045, 16]⟩
abbrev S2045x16x1 : Shape := ⟨3, ![2045, 16, 1]⟩
abbrev S4096x2045x16 : Shape := ⟨3, ![4096, 2045, 16]⟩
abbrev S1x1x16 : Shape := ⟨3, ![1, 1, 16]⟩
abbrev S4096x2045 : Shape := ⟨2, ![4096, 2045]⟩
abbrev S4096x2045x1 : Shape := ⟨3, ![4096, 2045, 1]⟩

abbrev nBuf : Space → Nat
  | .hbm => 42
  | .vmem => 0
  | .smem => 0
  | _ => 0

abbrev bufTy : (tb : Table) → Fin (tcTables nBuf tb) → BufTy
  | .hbm, ⟨0, _⟩ => ⟨S4096x8192, .f32⟩
  | .hbm, ⟨1, _⟩ => ⟨S1x16, .f32⟩
  | .hbm, ⟨2, _⟩ => ⟨S2045, .i32⟩
  | .hbm, ⟨3, _⟩ => ⟨S_, .i32⟩
  | .hbm, ⟨4, _⟩ => ⟨S2045, .i32⟩
  | .hbm, ⟨5, _⟩ => ⟨S2045, .i32⟩
  | .hbm, ⟨6, _⟩ => ⟨S2045x1, .i32⟩
  | .hbm, ⟨7, _⟩ => ⟨S16, .i32⟩
  | .hbm, ⟨8, _⟩ => ⟨S1x16, .i32⟩
  | .hbm, ⟨9, _⟩ => ⟨S2045x16, .i32⟩
  | .hbm, ⟨10, _⟩ => ⟨S2045x16, .i32⟩
  | .hbm, ⟨11, _⟩ => ⟨S2045x16, .i32⟩
  | .hbm, ⟨12, _⟩ => ⟨S_, .i32⟩
  | .hbm, ⟨13, _⟩ => ⟨S2045x16, .i32⟩
  | .hbm, ⟨14, _⟩ => ⟨S2045x16, .i1⟩
  | .hbm, ⟨15, _⟩ => ⟨S_, .i32⟩
  | .hbm, ⟨16, _⟩ => ⟨S2045x16, .i32⟩
  | .hbm, ⟨17, _⟩ => ⟨S2045x16, .i32⟩
  | .hbm, ⟨18, _⟩ => ⟨S2045x16, .i32⟩
  | .hbm, ⟨19, _⟩ => ⟨S2045x16x1, .i32⟩
  | .hbm, ⟨20, _⟩ => ⟨S4096x2045x16, .f32⟩
  | .hbm, ⟨21, _⟩ => ⟨S16, .f32⟩
  | .hbm, ⟨22, _⟩ => ⟨S1x1x16, .f32⟩
  | .hbm, ⟨23, _⟩ => ⟨S4096x2045x16, .f32⟩
  | .hbm, ⟨24, _⟩ => ⟨S4096x2045x16, .f32⟩
  | .hbm, ⟨25, _⟩ => ⟨S_, .f32⟩
  | .hbm, ⟨26, _⟩ => ⟨S4096x2045, .f32⟩
  | .hbm, ⟨27, _⟩ => ⟨S_, .f32⟩
  | .hbm, ⟨28, _⟩ => ⟨S4096x2045, .f32⟩
  | .hbm, ⟨29, _⟩ => ⟨S4096x2045, .f32⟩
  | .hbm, ⟨30, _⟩ => ⟨S4096x2045x1, .f32⟩
  | .hbm, ⟨31, _⟩ => ⟨S4096x2045x16, .f32⟩
  | .hbm, ⟨32, _⟩ => ⟨S4096x2045x16, .f32⟩
  | .hbm, ⟨33, _⟩ => ⟨S4096x2045x16, .f32⟩
  | .hbm, ⟨34, _⟩ => ⟨S_, .f32⟩
  | .hbm, ⟨35, _⟩ => ⟨S4096x2045, .f32⟩
  | .hbm, ⟨36, _⟩ => ⟨S4096x2045x1, .f32⟩
  | .hbm, ⟨37, _⟩ => ⟨S4096x2045x16, .f32⟩
  | .hbm, ⟨38, _⟩ => ⟨S4096x2045x16, .f32⟩
  | .hbm, ⟨39, _⟩ => ⟨S4096x2045x16, .f32⟩
  | .hbm, ⟨40, _⟩ => ⟨S_, .f32⟩
  | .hbm, ⟨41, _⟩ => ⟨S4096x2045, .f32⟩
  | _, _ => ⟨S4096x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_c_0 : Ref sig .tc := ⟨.hbm, 12, rfl⟩
abbrev main_v9 : Ref sig .tc := ⟨.hbm, 13, rfl⟩
abbrev main_v10 : Ref sig .tc := ⟨.hbm, 14, rfl⟩
abbrev main_c_1 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_cst : Ref sig .tc := ⟨.hbm, 25, rfl⟩
abbrev main_v20 : Ref sig .tc := ⟨.hbm, 26, rfl⟩
abbrev main_cst_2 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_cst_3 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_cst_4 : Ref sig .tc := ⟨.hbm, 40, rfl⟩
abbrev main_v32 : Ref sig .tc := ⟨.hbm, 41, rfl⟩

abbrev nD : Nat := 1
abbrev τ : Topo := Topo.v7x

variable {F : FTy → Type} [FloatOps F]

class Facts₀ : Prop where
  bcast_S_S2045 : S_.BroadcastsInDim S2045 (![] : Fin 0 → Fin S2045.rank)
  bcast_S2045_S2045x1_0 : S2045.BroadcastsInDim S2045x1 (![0] : Fin 1 → Fin S2045x1.rank)
  bcast_S16_S1x16_1 : S16.BroadcastsInDim S1x16 (![1] : Fin 1 → Fin S1x16.rank)
  bcast_S2045x1_S2045x16_0_1 : S2045x1.BroadcastsInDim S2045x16 (![0, 1] : Fin 2 → Fin S2045x16.rank)
  bcast_S1x16_S2045x16_0_1 : S1x16.BroadcastsInDim S2045x16 (![0, 1] : Fin 2 → Fin S2045x16.rank)
  bcast_S_S2045x16 : S_.BroadcastsInDim S2045x16 (![] : Fin 0 → Fin S2045x16.rank)
  bcast_S2045x16_S2045x16x1_0_1 : S2045x16.BroadcastsInDim S2045x16x1 (![0, 1] : Fin 2 → Fin S2045x16x1.rank)
  shapeCasts_S1x16_S16 : S1x16.ShapeCasts S16
  bcast_S16_S1x1x16_2 : S16.BroadcastsInDim S1x1x16 (![2] : Fin 1 → Fin S1x1x16.rank)
  bcast_S1x1x16_S4096x2045x16_0_1_2 : S1x1x16.BroadcastsInDim S4096x2045x16 (![0, 1, 2] : Fin 3 → Fin S4096x2045x16.rank)
  reducesTo_S4096x2045x16_S4096x2045_d2 : S4096x2045x16.ReducesTo [2] S4096x2045
  h_S_ : 0 < S_.numel
  bcast_S_S4096x2045 : S_.BroadcastsInDim S4096x2045 (![] : Fin 0 → Fin S4096x2045.rank)
  bcast_S4096x2045_S4096x2045x1_0_1 : S4096x2045.BroadcastsInDim S4096x2045x1 (![0, 1] : Fin 2 → Fin S4096x2045x1.rank)
  bcast_S4096x2045x1_S4096x2045x16_0_1_2 : S4096x2045x1.BroadcastsInDim S4096x2045x16 (![0, 1, 2] : Fin 3 → Fin S4096x2045x16.rank)
  gather_S4096x8192_S2045x16x1_S4096x2045x16_0_1_n_n_1_2_40961_wf : GatherDims.WF S4096x8192 S2045x16x1 S4096x2045x16 [0] [1] [] [1] [] 2 ![4096, 1]

variable [Facts₀]

def gather_S4096x8192_S2045x16x1_S4096x2045x16_0_1_n_n_1_2_40961 : GatherDims S4096x8192 S2045x16x1 S4096x2045x16 where
  offsetDims := [0]
  collapsedSliceDims := [1]
  operandBatchingDims := []
  startIndicesBatchingDims := []
  startIndexMap := [1]
  indexVectorDim := 2
  sliceSizes := ![4096, 1]
  wf := gather_S4096x8192_S2045x16x1_S4096x2045x16_0_1_n_n_1_2_40961_wf

class Facts : Prop extends Facts₀ where

variable [Facts]
-- ==== Proof.SoftAvg.lean ====
/-
  The soft-maximum average of sixteen taps, in its two arrangements, and that they agree on finite taps.

  For taps ρ₀ … ρ₁₅ the quantity is  (∑ₖ ρₖ·e^{ρₖ}) / (∑ₖ e^{ρₖ}),  the softmax-weighted mean of the taps.

  * The STREAMING arrangement visits the taps one at a time and carries a triple (m, num, den): m the running
    maximum (−∞ before the first tap), num = ∑ ρⱼ·e^{ρⱼ − m} and den = ∑ e^{ρⱼ − m} over the taps seen. A new tap ρ
    moves the maximum to m' = max m ρ, rescales both sums by e^{m − m'} and adds the tap's own terms ρ·e^{ρ − m'} and
    e^{ρ − m'}. The answer is num / den after the last tap.
  * The NORMALIZED arrangement subtracts one shift M from every tap, exponentiates, divides each exponential by
    their sum, and sums the taps weighted by these quotients.

  On the extended reals both are read with the conventions e^{−∞} = 0 and −∞ − r = −∞, so the first streaming
  step from (−∞, 0, 0) lands on (ρ₀, ρ₀, 1). After that every quantity is a real number, and the invariant
  num = A·e^{−m}, den = B·e^{−m} with A = ∑ ρⱼ·e^{ρⱼ}, B = ∑ e^{ρⱼ} is kept by e^{a}·e^{b} = e^{a+b}. The common factor
  cancels in the quotient: that is the whole law, and it needs the taps FINITE (at an infinite tap the
  differences and the quotient are not the real ones). Neither arrangement's value depends on which real shift
  was used, so the running maximum and the normalized form's shift need not be compared.

  The specification of the whole computation: output (n, i) is the average of the sixteen taps
  x[n, 4·i + k] · w[0, k],  k = 0 … 15, of row n.
-/
import Idealize.ShloMosaic.PureOps.Ideal
import Idealize.ShloMosaic.Lib.ValueIdx
import Mathlib.Tactic

noncomputable section

open scoped BigOperators

namespace Cert.SoftAvg

open Idealize.ShloMosaic

/-! ## The two arrangements -/

/-- The streaming triple: running maximum, weighted sum, plain sum. -/
abbrev St := EReal × EReal × EReal

/-- Before the first tap: maximum −∞, both sums zero. -/
def start : St := (⊥, 0, 0)

/-- One tap of the streaming arrangement. -/
def step (s : St) (ρ : EReal) : St :=
  (max s.1 ρ,
   s.2.1 * Ideal.exp (s.1 - max s.1 ρ) + ρ * Ideal.exp (ρ - max s.1 ρ),
   s.2.2 * Ideal.exp (s.1 - max s.1 ρ) + Ideal.exp (ρ - max s.1 ρ))

/-- The streaming arrangement over a list of taps: the quotient of the two sums after the last tap. -/
def stream (l : List EReal) : EReal :=
  Ideal.div (l.foldl step start).2.1 (l.foldl step start).2.2

/-- The normalized arrangement with shift `M`: each sum is taken from zero, as a reduction with a zero
    initial value is. -/
def normalized (ρ : Fin 16 → EReal) (M : EReal) : EReal :=
  0 + ∑ k, ρ k * Ideal.div (Ideal.exp (ρ k - M)) (0 + ∑ j, Ideal.exp (ρ j - M))

/-- The softmax-weighted mean of real taps. -/
def mean (r : Fin 16 → ℝ) : ℝ := (∑ k, r k * Real.exp (r k)) / (∑ k, Real.exp (r k))

/-! ## The specification over the arrays -/

abbrev SIn : Shape := ⟨2, ![4096, 8192]⟩
abbrev SW : Shape := ⟨2, ![1, 16]⟩
abbrev SOut : Shape := ⟨2, ![4096, 2045]⟩

/-- Tap `k` of output `(n, i)`: the input at column `4·i + k` of row `n`, times weight `k`. -/
def tap (x : SIn.Idx → EReal) (w : SW.Idx → EReal) (n : Fin 4096) (i : Fin 2045) (k : Fin 16) : EReal :=
  x (ValueIdx.ix2 n (⟨4 * i.val + k.val, by omega⟩ : Fin 8192)) * w (ValueIdx.ix2 (0 : Fin 1) k)

/-- The whole result: entry `(n, i)` is the streaming average of its sixteen taps. -/
def G (x : SIn.Idx → EReal) (w : SW.Idx → EReal) : SOut.Idx → EReal :=
  fun j => stream (List.ofFn (tap x w (j 0) (j 1)))

/-! ## The streaming arrangement on real taps -/

/-- The triple stands for partial sums `A = ∑ ρ·e^ρ`, `B = ∑ e^ρ` seen through a real maximum `μ`. -/
def Tracks (s : St) (A B : ℝ) : Prop :=
  ∃ μ : ℝ, s = ((μ : EReal), ((A * Real.exp (-μ) : ℝ) : EReal), ((B * Real.exp (-μ) : ℝ) : EReal))

/-- The first tap: from (−∞, 0, 0) the step lands on (r, r, 1). -/
theorem step_start (r : ℝ) : Tracks (step start (r : EReal)) (r * Real.exp r) (Real.exp r) := by
  refine ⟨r, ?_⟩
  have hmax : max (⊥ : EReal) (r : EReal) = (r : EReal) := max_eq_right bot_le
  have hsub : (r : EReal) - (r : EReal) = ((0 : ℝ) : EReal) := by rw [← EReal.coe_sub, sub_self]
  have hA : r * Real.exp r * Real.exp (-r) = r := by
    rw [mul_assoc, ← Real.exp_add, add_neg_cancel, Real.exp_zero, mul_one]
  have hB : Real.exp r * Real.exp (-r) = 1 := by
    rw [← Real.exp_add, add_neg_cancel, Real.exp_zero]
  simp only [step, start, hmax, EReal.bot_sub, Ideal.exp_bot, hsub, Ideal.exp_coe, Real.exp_zero, mul_zero,
    zero_add, EReal.coe_one, mul_one, hA, hB]

/-- A later tap keeps the invariant, moving the maximum to `max μ r`. -/
theorem step_tracks {s : St} {A B : ℝ} (h : Tracks s A B) (r : ℝ) :
    Tracks (step s (r : EReal)) (A + r * Real.exp r) (B + Real.exp r) := by
  obtain ⟨μ, rfl⟩ := h
  refine ⟨max μ r, ?_⟩
  have h1 : Real.exp (-μ) * Real.exp (μ - max μ r) = Real.exp (-(max μ r)) := by
    rw [← Real.exp_add]; congr 1; ring
  have h2 : Real.exp (r - max μ r) = Real.exp r * Real.exp (-(max μ r)) := by
    rw [← Real.exp_add]; congr 1
  have hA : A * Real.exp (-μ) * Real.exp (μ - max μ r) + r * Real.exp (r - max μ r)
      = (A + r * Real.exp r) * Real.exp (-(max μ r)) := by
    rw [mul_assoc, h1, h2]; ring
  have hB : B * Real.exp (-μ) * Real.exp (μ - max μ r) + Real.exp (r - max μ r)
      = (B + Real.exp r) * Real.exp (-(max μ r)) := by
    rw [mul_assoc, h1, h2]; ring
  have hmax : max (μ : EReal) (r : EReal) = ((max μ r : ℝ) : EReal) :=
    (EReal.coe_strictMono.monotone.map_max (a := μ) (b := r)).symm
  simp only [step, hmax, ← EReal.coe_sub, Ideal.exp_coe, ← EReal.coe_mul, ← EReal.coe_add, hA, hB]

/-- The invariant along a list of real taps. -/
theorem foldl_tracks (l : List ℝ) {s : St} {A B : ℝ} (h : Tracks s A B) :
    Tracks ((l.map fun r : ℝ => (r : EReal)).foldl step s)
      (A + (l.map fun r => r * Real.exp r).sum) (B + (l.map Real.exp).sum) := by
  induction l generalizing s A B with
  | nil => simpa using h
  | cons r l ih =>
    have := ih (step_tracks h r)
    simpa [add_assoc] using this

/-- With a nonzero plain sum the quotient of a tracked triple is `A / B`: the common factor cancels. -/
theorem div_tracks {s : St} {A B : ℝ} (h : Tracks s A B) (hB : B ≠ 0) :
    Ideal.div s.2.1 s.2.2 = ((A / B : ℝ) : EReal) := by
  obtain ⟨μ, rfl⟩ := h
  have he : Real.exp (-μ) ≠ 0 := (Real.exp_pos _).ne'
  have hne : B * Real.exp (-μ) ≠ 0 := mul_ne_zero hB he
  show Ideal.div ((A * Real.exp (-μ) : ℝ) : EReal) ((B * Real.exp (-μ) : ℝ) : EReal) = _
  rw [Ideal.div_coe hne, ← EReal.coe_mul]
  congr 1
  field_simp

/-- THE STREAMING ARRANGEMENT ON REAL TAPS is their softmax-weighted mean. -/
theorem stream_real (r : Fin 16 → ℝ) : stream (List.ofFn fun k => (r k : EReal)) = (mean r : EReal) := by
  have hl : (List.ofFn fun k => (r k : EReal)) = ((List.ofFn r).map fun r : ℝ => (r : EReal)) := by
    rw [List.map_ofFn]; rfl
  have hcons : List.ofFn r = r 0 :: List.ofFn (fun k : Fin 15 => r k.succ) := List.ofFn_succ
  have htr := foldl_tracks (List.ofFn fun k : Fin 15 => r k.succ) (step_start (r 0))
  have hA : r 0 * Real.exp (r 0) + ((List.ofFn fun k : Fin 15 => r k.succ).map fun r => r * Real.exp r).sum
      = ∑ k, r k * Real.exp (r k) := by
    rw [List.map_ofFn, List.sum_ofFn, Fin.sum_univ_succ (fun k => r k * Real.exp (r k))]; rfl
  have hB : Real.exp (r 0) + ((List.ofFn fun k : Fin 15 => r k.succ).map Real.exp).sum
      = ∑ k, Real.exp (r k) := by
    rw [List.map_ofFn, List.sum_ofFn, Fin.sum_univ_succ (fun k => Real.exp (r k))]; rfl
  rw [hA, hB] at htr
  have hpos : (∑ k, Real.exp (r k)) ≠ 0 :=
    (Finset.sum_pos (fun k _ => Real.exp_pos (r k)) Finset.univ_nonempty).ne'
  unfold stream
  rw [hl, hcons, List.map_cons, List.foldl_cons]
  exact div_tracks htr hpos

/-! ## The normalized arrangement on real taps -/

/-- A finite sum of real numbers, read in the extended reals, is the real sum. -/
theorem coe_sum {ι : Type} (s : Finset ι) (f : ι → ℝ) : (∑ i ∈ s, (f i : EReal)) = (((∑ i ∈ s, f i) : ℝ) : EReal) := by
  classical
  induction s using Finset.induction_on with
  | empty => simp
  | insert a s ha ih => rw [Finset.sum_insert ha, Finset.sum_insert ha, ih, EReal.coe_add]

/-- THE NORMALIZED ARRANGEMENT ON REAL TAPS, with any real shift, is their softmax-weighted mean. -/
theorem normalized_real (r : Fin 16 → ℝ) (μ : ℝ) :
    normalized (fun k => (r k : EReal)) (μ : EReal) = (mean r : EReal) := by
  have hS : (∑ j, Real.exp (r j - μ)) ≠ 0 :=
    (Finset.sum_pos (fun k _ => Real.exp_pos _) Finset.univ_nonempty).ne'
  have hB : (∑ k, Real.exp (r k)) ≠ 0 :=
    (Finset.sum_pos (fun k _ => Real.exp_pos (r k)) Finset.univ_nonempty).ne'
  have hμ : Real.exp μ ≠ 0 := (Real.exp_pos μ).ne'
  unfold normalized
  have hsum : (∑ j, Real.exp (r j - μ)) = (∑ j, Real.exp (r j)) / Real.exp μ := by
    rw [Finset.sum_div]; exact Finset.sum_congr rfl fun j _ => Real.exp_sub _ _
  have hreal : (∑ k, r k * (Real.exp (r k - μ) * (1 / ∑ j, Real.exp (r j - μ)))) = mean r := by
    unfold mean
    rw [hsum, show (∑ k, r k * Real.exp (r k)) / (∑ k, Real.exp (r k))
        = ∑ k, r k * Real.exp (r k) / (∑ k, Real.exp (r k)) from Finset.sum_div _ _ _]
    apply Finset.sum_congr rfl
    intro k _
    rw [Real.exp_sub]
    field_simp
  simp only [← EReal.coe_sub, Ideal.exp_coe, coe_sum, zero_add, Ideal.div_coe hS, ← EReal.coe_mul]
  rw [hreal]

/-- On finite taps the two arrangements agree, whatever real shift the normalized one uses. -/
theorem normalized_eq_stream (ρ : Fin 16 → EReal) (M : EReal) (hρ : ∀ k, ∃ r : ℝ, ρ k = (r : EReal))
    (hM : ∃ μ : ℝ, M = (μ : EReal)) : normalized ρ M = stream (List.ofFn ρ) := by
  choose r hr using hρ
  obtain ⟨μ, rfl⟩ := hM
  obtain rfl : ρ = fun k => (r k : EReal) := funext hr
  rw [normalized_real, stream_real]

end Cert.SoftAvg

end
-- ==== Proof.KernelPay.lean ====
/-
  What the kernel body leaves at ONE entry of its output block.

  At a grid point the body holds a block X of the de-interleaved input, of shape [4, 256, 2048] (X[p, r, j] is the
  input of row r at column 4·j + p), and the weight row w of shape [1, 16]. Tap k of output entry (r, i) is read
  from the contiguous piece of X that starts at lane k / 4 of plane k % 4:

      X[k % 4, r, i + k / 4] · w[0, k]        (the input at column 4·(i + k/4) + k%4 = 4·i + k, times weight k).

  The body visits the sixteen taps in order and carries, entry by entry, the running maximum, the weighted sum and
  the plain sum of the streaming arrangement (SoftAvg.lean), starting from −∞, 0, 0, and stores the quotient of the two
  sums. Every operation of the body acts entry by entry, except the ones that only move data: the view of a
  [1, 256, 2045] piece as [256, 2045] (entry (r, i) is entry (0, r, i)), the extraction of one weight from the row
  (entry (0, k)), and the broadcasts of a weight or a constant over the block. So the stored block at (r, i) is the
  streaming arrangement of the sixteen taps above: `out_apply`.
-/
import proofs.«153410_j56564719288842_2_alg».proof.Proof.Gen.KernelIdeal.Frame
import proofs.«153410_j56564719288842_2_alg».proof.Proof.SoftAvg
import Idealize.ShloMosaic.Lib.Pipeline.Value
import Idealize.ShloMosaic.Lib.ValueIdx
import Idealize.ShloMosaic.PureOps.Ideal.Laws

noncomputable section

namespace Cert.KernelIdeal.Pay

open Cert.KernelIdeal Cert.KernelIdeal.Gen Idealize.ShloMosaic Idealize.ShloMosaic.ValueIdx

/-! ## Small readings -/

/-- Sixteen values listed in order. -/
theorem ofFn16 {α : Type} (f : Fin 16 → α) :
    List.ofFn f = [f 0, f 1, f 2, f 3, f 4, f 5, f 6, f 7, f 8, f 9, f 10, f 11, f 12, f 13, f 14, f 15] := rfl

/-- The pattern of negative infinity denotes the bottom of the extended reals. -/
theorem ninf : Ideal.ofBits .f32 0xFF800000#32 = (⊥ : EReal) := by simp [Ideal.ofBits, Ideal.ieee]

/-- The exponential of a block, entry by entry. -/
theorem exp_apply {s : Shape} {φ : FTy} (a : FVec Ideal s φ) (i : s.Idx) : exp a i = Ideal.exp (a i) := rfl

/-- A [1, 256, 2045] piece viewed as [256, 2045]: entry (r, i) is entry (0, r, i). -/
theorem cast_apply {α : Type} (x : S1x256x2045.Idx → α) (h : S1x256x2045.ShapeCasts S256x2045) (r : Fin 256) (i : Fin 2045) :
    shapeCast S256x2045 x h (ix2 r i) = x (ix3 (0 : Fin 1) r i) := by
  refine (shapeCast_dropUnit_apply ![256, 2045] x h (ix2 r i)).trans ?_
  congr 1; funext a
  match a with
  | ⟨0, _⟩ => rfl
  | ⟨1, _⟩ => rfl
  | ⟨2, _⟩ => rfl

/-- A one-entry slice of the weight row at column `kk` lies inside the sixteen columns. -/
theorem weight_lt {kk : Nat} (sl : S1x16.Slices ![0, kk] S1x1) : kk < 16 := by
  have h : kk + 1 ≤ 16 := sl.2 (1 : Fin 2)
  omega

/-- The weight extracted from the one-entry slice at column `kk` of the row is the row's entry (0, kk). -/
theorem weight_apply {α : Type} (w : S1x16.Idx → α) (kk : Nat) (sl : S1x16.Slices ![0, kk] S1x1)
    (ip : ∀ a, (![0, 0] : Fin 2 → Nat) a < S1x1.size a) :
    extractAt ![0, 0] (extractStridedSlice S1x1 ![0, kk] w sl) ip = w (ix2 (0 : Fin 1) (⟨kk, weight_lt sl⟩ : Fin 16)) := by
  unfold extractAt extractStridedSlice
  congr 1; funext a; apply Fin.ext
  match a with
  | ⟨0, _⟩ => rfl
  | ⟨1, _⟩ => simp

/-- The piece of the block that starts at plane `p`, lane `q`: its entry (0, r, i) is the block's entry (p, r, i + q). -/
theorem ld_apply (X : Vec Ideal S4x256x2048 .f32) (p q : Nat)
    (inb : ∀ a, (![p, 0, q] : Fin 3 → Nat) a + S1x256x2045.size a ≤ S4x256x2048.size a) (hp : p < 4) (r : Fin 256) (i : Fin 2045)
    (hq : i.val + q < 2048) :
    View.ld X (Rect.unit (s := S4x256x2048) ![p, 0, q] S1x256x2045.size inb) (ix3 (0 : Fin 1) r i)
      = X (ix3 (⟨p, hp⟩ : Fin 4) r (⟨i.val + q, hq⟩ : Fin 2048)) := by
  show X _ = X _
  congr 1; funext a; apply Fin.ext
  match a with
  | ⟨0, _⟩ => show p + 1 * 0 = p; omega
  | ⟨1, _⟩ => show 0 + 1 * r.val = r.val; omega
  | ⟨2, _⟩ => show q + 1 * i.val = i.val + q; omega

theorem hz : (![0, 0] : Fin 2 → Nat) = fun _ => 0 := funext fun a => by fin_cases a <;> rfl

/-! ## The stored value at an entry, over the body's seventeen loads -/

set_option maxHeartbeats 1000000 in
/-- The body's stored value, as a term of the weight row `w` and the sixteen loaded pieces `x0 … x15`, read at entry
    (r, i): every arithmetic operation is taken entry by entry, the pieces are read at (0, r, i) and the weights at
    (0, k), and what remains is, step for step, the streaming arrangement of the sixteen products. -/
theorem pay_apply (w : Vec Ideal S1x16 .f32) (x0 x1 x2 x3 x4 x5 x6 x7 x8 x9 x10 x11 x12 x13 x14 x15 : Vec Ideal S1x256x2045 .f32) (r : Fin 256) (i : Fin 2045) :
    (k0_pay1 (k0_pay69 w (k0_pay54 w (k0_pay40 w (k0_pay27 w (k0_pay14 w x0 x1 x2) x3 x4 x5) x6 x7 x8) x9 x10 x11) (k0_pay59 w) x12 x13 x14) (k0_pay72 w (k0_pay54 w (k0_pay40 w (k0_pay27 w (k0_pay14 w x0 x1 x2) x3 x4 x5) x6 x7 x8) x9 x10 x11) (k0_pay57 w (k0_pay40 w (k0_pay27 w (k0_pay14 w x0 x1 x2) x3 x4 x5) x6 x7 x8) (k0_pay43 w (k0_pay26 w x5) (k0_pay27 w (k0_pay14 w x0 x1 x2) x3 x4 x5) (k0_pay29 w (k0_pay14 w x0 x1 x2) x3 x4 x5) (k0_pay30 w (k0_pay11 w x0 x1) (k0_pay13 w x2) (k0_pay14 w x0 x1 x2) (k0_pay15 w x0 x1 x2) x3 x4 x5) x6 x7 x8) x9 x10 x11) (k0_pay59 w) x12 x13 x14) (k0_pay73 w (k0_pay54 w (k0_pay40 w (k0_pay27 w (k0_pay14 w x0 x1 x2) x3 x4 x5) x6 x7 x8) x9 x10 x11) (k0_pay58 w (k0_pay40 w (k0_pay27 w (k0_pay14 w x0 x1 x2) x3 x4 x5) x6 x7 x8) (k0_pay42 w (k0_pay27 w (k0_pay14 w x0 x1 x2) x3 x4 x5) x6 x7 x8) (k0_pay44 w (k0_pay25 w (k0_pay12 w x0 x1) (k0_pay13 w x2) (k0_pay14 w x0 x1 x2) (k0_pay15 w x0 x1 x2) x3 x4) (k0_pay27 w (k0_pay14 w x0 x1 x2) x3 x4 x5) (k0_pay28 w (k0_pay14 w x0 x1 x2) x3 x4 x5) (k0_pay29 w (k0_pay14 w x0 x1 x2) x3 x4 x5) x6 x7 x8) x9 x10 x11) (k0_pay59 w) x12 x13 x14) (k0_pay74 w) x15) (ix2 r i)
      = SoftAvg.stream [x0 (ix3 (0 : Fin 1) r i) * w (ix2 (0 : Fin 1) (0 : Fin 16)),
      x1 (ix3 (0 : Fin 1) r i) * w (ix2 (0 : Fin 1) (1 : Fin 16)),
      x2 (ix3 (0 : Fin 1) r i) * w (ix2 (0 : Fin 1) (2 : Fin 16)),
      x3 (ix3 (0 : Fin 1) r i) * w (ix2 (0 : Fin 1) (3 : Fin 16)),
      x4 (ix3 (0 : Fin 1) r i) * w (ix2 (0 : Fin 1) (4 : Fin 16)),
      x5 (ix3 (0 : Fin 1) r i) * w (ix2 (0 : Fin 1) (5 : Fin 16)),
      x6 (ix3 (0 : Fin 1) r i) * w (ix2 (0 : Fin 1) (6 : Fin 16)),
      x7 (ix3 (0 : Fin 1) r i) * w (ix2 (0 : Fin 1) (7 : Fin 16)),
      x8 (ix3 (0 : Fin 1) r i) * w (ix2 (0 : Fin 1) (8 : Fin 16)),
      x9 (ix3 (0 : Fin 1) r i) * w (ix2 (0 : Fin 1) (9 : Fin 16)),
      x10 (ix3 (0 : Fin 1) r i) * w (ix2 (0 : Fin 1) (10 : Fin 16)),
      x11 (ix3 (0 : Fin 1) r i) * w (ix2 (0 : Fin 1) (11 : Fin 16)),
      x12 (ix3 (0 : Fin 1) r i) * w (ix2 (0 : Fin 1) (12 : Fin 16)),
      x13 (ix3 (0 : Fin 1) r i) * w (ix2 (0 : Fin 1) (13 : Fin 16)),
      x14 (ix3 (0 : Fin 1) r i) * w (ix2 (0 : Fin 1) (14 : Fin 16)),
      x15 (ix3 (0 : Fin 1) r i) * w (ix2 (0 : Fin 1) (15 : Fin 16))] := by
  simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74]
  simp only [divf_apply, addf_apply, mulf_apply, subf_apply, maximumf_apply, exp_apply, broadcast_apply, cast_apply,
    weight_apply, Ideal.ofBits_def, ninf, Ideal.ofBits_zero_f32]
  rfl

/-! ## The stored block at an entry, over the block and the weight row -/

set_option maxHeartbeats 1000000 in
/-- The output block the body leaves from an input block `X` and the weight row `w`, at entry (r, i): the streaming
    arrangement of the taps `X[k % 4, r, i + k / 4] · w[0, k]`. -/
theorem out_apply (X : Vec Ideal S4x256x2048 .f32) (w : Vec Ideal S1x16 .f32) (r : Fin 256) (i : Fin 2045) :
    out0_2 X w (ix2 r i) = SoftAvg.stream (List.ofFn fun k : Fin 16 =>
      X (ix3 (⟨k.val % 4, Nat.mod_lt _ (by norm_num)⟩ : Fin 4) r
          (⟨i.val + k.val / 4, by have := i.isLt; have := k.isLt; omega⟩ : Fin 2048)) * w (ix2 (0 : Fin 1) k)) := by
  unfold out0_2
  rw [View.canon_unit_zero hz]
  refine (pay_apply (View.ld w r0_0) (View.ld X r0_1) (View.ld X r0_2) (View.ld X r0_3) (View.ld X r0_4) (View.ld X r0_5) (View.ld X r0_6) (View.ld X r0_7) (View.ld X r0_8) (View.ld X r0_9) (View.ld X r0_10) (View.ld X r0_11) (View.ld X r0_12) (View.ld X r0_13) (View.ld X r0_14) (View.ld X r0_15) (View.ld X r0_16) r i).trans ?_
  have ew : View.ld w r0_0 = w := View.ld_unit_zero (S := S1x16) hz _ w
  have e0 : View.ld X r0_1 (ix3 (0 : Fin 1) r i) = X (ix3 (⟨0, by norm_num⟩ : Fin 4) r (⟨i.val + 0, by have := i.isLt; omega⟩ : Fin 2048)) :=
    ld_apply X 0 0 _ _ r i _
  have e1 : View.ld X r0_2 (ix3 (0 : Fin 1) r i) = X (ix3 (⟨1, by norm_num⟩ : Fin 4) r (⟨i.val + 0, by have := i.isLt; omega⟩ : Fin 2048)) :=
    ld_apply X 1 0 _ _ r i _
  have e2 : View.ld X r0_3 (ix3 (0 : Fin 1) r i) = X (ix3 (⟨2, by norm_num⟩ : Fin 4) r (⟨i.val + 0, by have := i.isLt; omega⟩ : Fin 2048)) :=
    ld_apply X 2 0 _ _ r i _
  have e3 : View.ld X r0_4 (ix3 (0 : Fin 1) r i) = X (ix3 (⟨3, by norm_num⟩ : Fin 4) r (⟨i.val + 0, by have := i.isLt; omega⟩ : Fin 2048)) :=
    ld_apply X 3 0 _ _ r i _
  have e4 : View.ld X r0_5 (ix3 (0 : Fin 1) r i) = X (ix3 (⟨0, by norm_num⟩ : Fin 4) r (⟨i.val + 1, by have := i.isLt; omega⟩ : Fin 2048)) :=
    ld_apply X 0 1 _ _ r i _
  have e5 : View.ld X r0_6 (ix3 (0 : Fin 1) r i) = X (ix3 (⟨1, by norm_num⟩ : Fin 4) r (⟨i.val + 1, by have := i.isLt; omega⟩ : Fin 2048)) :=
    ld_apply X 1 1 _ _ r i _
  have e6 : View.ld X r0_7 (ix3 (0 : Fin 1) r i) = X (ix3 (⟨2, by norm_num⟩ : Fin 4) r (⟨i.val + 1, by have := i.isLt; omega⟩ : Fin 2048)) :=
    ld_apply X 2 1 _ _ r i _
  have e7 : View.ld X r0_8 (ix3 (0 : Fin 1) r i) = X (ix3 (⟨3, by norm_num⟩ : Fin 4) r (⟨i.val + 1, by have := i.isLt; omega⟩ : Fin 2048)) :=
    ld_apply X 3 1 _ _ r i _
  have e8 : View.ld X r0_9 (ix3 (0 : Fin 1) r i) = X (ix3 (⟨0, by norm_num⟩ : Fin 4) r (⟨i.val + 2, by have := i.isLt; omega⟩ : Fin 2048)) :=
    ld_apply X 0 2 _ _ r i _
  have e9 : View.ld X r0_10 (ix3 (0 : Fin 1) r i) = X (ix3 (⟨1, by norm_num⟩ : Fin 4) r (⟨i.val + 2, by have := i.isLt; omega⟩ : Fin 2048)) :=
    ld_apply X 1 2 _ _ r i _
  have e10 : View.ld X r0_11 (ix3 (0 : Fin 1) r i) = X (ix3 (⟨2, by norm_num⟩ : Fin 4) r (⟨i.val + 2, by have := i.isLt; omega⟩ : Fin 2048)) :=
    ld_apply X 2 2 _ _ r i _
  have e11 : View.ld X r0_12 (ix3 (0 : Fin 1) r i) = X (ix3 (⟨3, by norm_num⟩ : Fin 4) r (⟨i.val + 2, by have := i.isLt; omega⟩ : Fin 2048)) :=
    ld_apply X 3 2 _ _ r i _
  have e12 : View.ld X r0_13 (ix3 (0 : Fin 1) r i) = X (ix3 (⟨0, by norm_num⟩ : Fin 4) r (⟨i.val + 3, by have := i.isLt; omega⟩ : Fin 2048)) :=
    ld_apply X 0 3 _ _ r i _
  have e13 : View.ld X r0_14 (ix3 (0 : Fin 1) r i) = X (ix3 (⟨1, by norm_num⟩ : Fin 4) r (⟨i.val + 3, by have := i.isLt; omega⟩ : Fin 2048)) :=
    ld_apply X 1 3 _ _ r i _
  have e14 : View.ld X r0_15 (ix3 (0 : Fin 1) r i) = X (ix3 (⟨2, by norm_num⟩ : Fin 4) r (⟨i.val + 3, by have := i.isLt; omega⟩ : Fin 2048)) :=
    ld_apply X 2 3 _ _ r i _
  have e15 : View.ld X r0_16 (ix3 (0 : Fin 1) r i) = X (ix3 (⟨3, by norm_num⟩ : Fin 4) r (⟨i.val + 3, by have := i.isLt; omega⟩ : Fin 2048)) :=
    ld_apply X 3 3 _ _ r i _
  rw [ew, e0, e1, e2, e3, e4, e5, e6, e7, e8, e9, e10, e11, e12, e13, e14, e15, ofFn16]
  rfl

end Cert.KernelIdeal.Pay

end
-- ==== Proof.KernelBlocks.lean ====
/-
  From the blocks the kernel writes back to the whole result array.

  The kernel runs over sixteen grid points. Point t stages rows 256·t … 256·t + 255 of the de-interleaved input,
  an array of shape [4, 4096, 2048] that the program builds before the region by reshaping the input to
  [4096, 2048, 4] and moving the last axis to the front: its entry (p, n, j) is the input at row n, column 4·j + p.
  The weight row is staged whole at every point. Point t writes back rows 256·t … 256·t + 255 of the result.

  * Entry (p, r, j) of the input block at point t is the input at row 256·t + r, column 4·j + p (the staged array
    read through the block, then through the transpose and the reshape: both sides sit at the same row-major
    position, n·8192 + 4·j + p = (n·2048 + j)·4 + p).
  * So tap k of entry (r, i) of the written block, the block's entry (k % 4, r, i + k / 4) times weight k, is the
    input at row 256·t + r, column 4·(i + k/4) + k%4 = 4·i + k, times weight k: tap k of result entry
    (256·t + r, i) in the specification. With the body's value at an entry (KernelPay.lean) this says that what
    point t writes back is block t of the specified result.
  * Every index (n, i) of the result lies in the block of point n / 256, so the sixteen blocks cover the array, and
    the array after the run is the specified function of the two argument arrays.
-/
import proofs.«153410_j56564719288842_2_alg».proof.Proof.Gen.KernelIdeal.Value
import proofs.«153410_j56564719288842_2_alg».proof.Proof.SoftAvg
import proofs.«153410_j56564719288842_2_alg».proof.Proof.KernelPay
import Idealize.ShloMosaic.Lib.Pipeline.Value
import Idealize.ShloMosaic.Lib.ValueIdx
import Idealize.ShloMosaic.Lib.StableHlo.Run
import Idealize.ShloMosaic.PureOps.Ideal.Laws

noncomputable section

namespace Cert.KernelIdeal.Blocks

open Cert.KernelIdeal Cert.KernelIdeal.Gen Cert.KernelIdeal.Value Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-- The array the first window stages: the input reshaped [4096, 2048, 4] and transposed to [4, 4096, 2048]. -/
theorem staged_eq (c : Dev nD) : (V m c main_v1 : S4x4096x2048.Idx → EReal)
    = transpose S4x4096x2048 [2, 0, 1]
        (shapeCast S4096x2048x4 (m ((c : Thread nD τ).loc main_arg0)) shapeCasts_S4096x8192_S4096x2048x4)
        transposes_S4096x2048x4_S4x4096x2048_2_0_1 := by
  dsimp only [Gen.V, Gen.hostOps0]
  after_results
  rfl

/-- Entry (p, n, j) of the staged array is the input at row n, column 4·j + p. -/
theorem staged_apply (c : Dev nD) (p : Fin 4) (n : Fin 4096) (j : Fin 2048) :
    V m c main_v1 (ix3 p n j)
      = m ((c : Thread nD τ).loc main_arg0) (ix2 n (⟨4 * j.val + p.val, by have := j.isLt; have := p.isLt; omega⟩ : Fin 8192)) := by
  have e := staged_eq m c
  rw [e]
  refine (transpose_apply [2, 0, 1] _ transposes_S4096x2048x4_S4x4096x2048_2_0_1 (ix3 p n j) (ix3 n j p) ?_).trans ?_
  · intro b
    match b with
    | ⟨0, _⟩ => rfl
    | ⟨1, _⟩ => rfl
    | ⟨2, _⟩ => rfl
  · refine shapeCast_apply _ shapeCasts_S4096x8192_S4096x2048x4 (ix3 n j p) _ ?_
    rw [Shape.rowMajor_val_two, Shape.rowMajor_val_three]
    show n.val * 8192 + (4 * j.val + p.val) = (n.val * 2048 + j.val) * 4 + p.val
    omega

theorem idx_facts : ∀ t : Fin cfg0.N, win0_0.index t (0 : Fin 3) = 0 ∧ win0_0.index t (1 : Fin 3) = t.val ∧ win0_0.index t (2 : Fin 3) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

theorem row_lt (t : Fin cfg0.N) (r : Fin 256) : t.val * 256 + r.val < 4096 := by
  have := t.isLt; have := N_0; have : cfg0.N = grid0.N := rfl; have := r.isLt; omega

/-- The first window's block at point t: entry (p, r, j) is the staged array's entry (p, 256·t + r, j). -/
theorem iblk0_apply (c : Dev nD) (t : Fin cfg0.N) (p : Fin 4) (r : Fin 256) (j : Fin 2048) :
    iblk m c 0 t (ix3 p r j) = V m c main_v1 (ix3 p (⟨t.val * 256 + r.val, row_lt t r⟩ : Fin 4096) j) := by
  obtain ⟨e0, e1, e2, -⟩ := idx_facts t
  show V m c main_v1 (((cfg0.win 0).blk t).view.emb (ix3 p r j)) = _
  congr 1; funext a; apply Fin.ext
  match a with
  | ⟨0, _⟩ => show win0_0.index t (0 : Fin 3) * 4 + 1 * p.val = p.val; omega
  | ⟨1, _⟩ => show win0_0.index t (1 : Fin 3) * 256 + 1 * r.val = t.val * 256 + r.val; omega
  | ⟨2, _⟩ => show win0_0.index t (2 : Fin 3) * 2048 + 1 * j.val = j.val; omega

/-- The second window's block is the whole weight row at every point. -/
theorem iblk1_apply (c : Dev nD) (t : Fin cfg0.N) (k : Fin 16) :
    iblk m c 1 t (ix2 (0 : Fin 1) k) = m ((c : Thread nD τ).loc main_arg1) (ix2 (0 : Fin 1) k) := by
  obtain ⟨-, -, -, e3, e4, -⟩ := idx_facts t
  rw [← V_main_arg1 m c]
  show V m c main_arg1 (((cfg0.win 1).blk t).view.emb (ix2 (0 : Fin 1) k)) = _
  congr 1; funext a; apply Fin.ext
  match a with
  | ⟨0, _⟩ => show win0_1.index t (0 : Fin 2) * 1 + 1 * 0 = 0; omega
  | ⟨1, _⟩ => show win0_1.index t (1 : Fin 2) * 16 + 1 * k.val = k.val; omega

/-- An index of the result array is in point t's block iff each coordinate is in the block's range on its axis. -/
theorem mem_blk (t : Fin cfg0.N) (i : S4096x2045.Idx) :
    i ∈ ((cfg0.win 2).blk t).view.set ↔ ∀ a : Fin 2, win0_2.index t a * S256x2045.size a ≤ (i a).val ∧ (i a).val < win0_2.index t a * S256x2045.size a + S256x2045.size a := by
  show i ∈ ((View.whole main_v2).slice (win0_2.rect t)).set ↔ _
  rw [View.set_slice_whole, Rect.mem_set_unit]
  exact Iff.rfl

/-- Every index of the result array is in the block of the point its row falls in. -/
theorem cover (i : S4096x2045.Idx) : ∃ t : Fin cfg0.N, (cfg0.win 2).flush t = true ∧ i ∈ ((cfg0.win 2).blk t).view.set := by
  have hi0 : (i 0).val < 4096 := (i 0).isLt
  have hi1 : (i 1).val < 2045 := (i 1).isLt
  have hN : cfg0.N = 16 := N_0
  let t : Fin cfg0.N := ⟨(i 0).val / 256, by rw [hN]; omega⟩
  obtain ⟨-, -, -, -, -, e5, e6⟩ := idx_facts t
  have ht : t.val = (i 0).val / 256 := rfl
  refine ⟨t, flush0_2 t, ?_⟩
  rw [mem_blk]
  intro a
  match a with
  | ⟨0, _⟩ => show win0_2.index t (0 : Fin 2) * 256 ≤ (i 0).val ∧ (i 0).val < win0_2.index t (0 : Fin 2) * 256 + 256; omega
  | ⟨1, _⟩ => show win0_2.index t (1 : Fin 2) * 2045 ≤ (i 1).val ∧ (i 1).val < win0_2.index t (1 : Fin 2) * 2045 + 2045; omega

/-- WHAT POINT t WRITES BACK is block t of the specified result of the argument arrays: entry (r, i) of the block the body
    leaves is the streaming average of the taps it reads from its input block, and those are the input at row
    256·t + r, columns 4·i + k, times the weights. -/
theorem flushed_eq (c : Dev nD) (t : Fin cfg0.N) :
    (dats m 0 c).flushed 2 t = ((cfg0.win 2).blk t).view.read (Elt Ideal)
      (SoftAvg.G (m ((c : Thread nD τ).loc main_arg0)) (m ((c : Thread nD τ).loc main_arg1))) := by
  rw [Value.flushed2]
  obtain ⟨-, -, -, -, -, e5, e6⟩ := idx_facts t
  funext j
  obtain ⟨r, i, rfl⟩ : ∃ (r : Fin 256) (i : Fin 2045), j = ix2 r i := ⟨j 0, j 1, eq_ix2 j⟩
  show out0_2 (iblk m c 0 t) (iblk m c 1 t) (ix2 r i) = SoftAvg.G _ _ (((cfg0.win 2).blk t).view.emb (ix2 r i))
  refine (Pay.out_apply (iblk m c 0 t) (iblk m c 1 t) r i).trans ?_
  have hemb : ((cfg0.win 2).blk t).view.emb (ix2 r i) = ix2 (⟨t.val * 256 + r.val, row_lt t r⟩ : Fin 4096) i := by
    funext a; apply Fin.ext
    match a with
    | ⟨0, _⟩ => show win0_2.index t (0 : Fin 2) * 256 + 1 * r.val = t.val * 256 + r.val; omega
    | ⟨1, _⟩ => show win0_2.index t (1 : Fin 2) * 2045 + 1 * i.val = i.val; omega
  rw [hemb]
  show _ = SoftAvg.stream (List.ofFn (SoftAvg.tap _ _ (⟨t.val * 256 + r.val, row_lt t r⟩ : Fin 4096) i))
  refine congrArg SoftAvg.stream (congrArg List.ofFn (funext fun k => ?_))
  refine (congrArg₂ (fun a b : EReal => a * b) ((iblk0_apply m c t _ r _).trans (staged_apply m c _ _ _)) (iblk1_apply m c t k)).trans ?_
  have h : 4 * (i.val + k.val / 4) + k.val % 4 = 4 * i.val + k.val := by omega
  unfold SoftAvg.tap
  simp only [h]

/-- THE RESULT ARRAY after the run is the specified function of the argument arrays: the sixteen blocks tile it. -/
theorem final (c : Dev nD) : (dats m 0 c).arrAt 2 cfg0.N
    = SoftAvg.G (m ((c : Thread nD τ).loc main_arg0)) (m ((c : Thread nD τ).loc main_arg1)) :=
  (dats m 0 c).arrAt_eq_of_cover 2 _ (fun t _ => flushed_eq m c t) cover

/-- The kernel's run, read: the result array ends at the specified function of the arguments, which end unchanged. -/
theorem run : θ_run defs (onTc (τ := τ) (main (F := Ideal))) ⟨m, fun _ => 0, ρ⟩ fun r => ∀ c : Dev nD,
      r.2.mem ((c : Thread nD τ).loc main_v2)
        = SoftAvg.G (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Value.run_blocks m ρ)

end Cert.KernelIdeal.Blocks

end
-- ==== Proof.RefValue.lean ====
/-
  The reference computation, read at an output index, is the soft-maximum average of sixteen taps.

  For the input x (4096 × 8192) and the weights w (1 × 16), the reference first builds the integer table
  c(i, k) = 4·i + k (i < 2045, k < 16) in 32-bit words, gathers the windows x[n, c(i, k)], multiplies window
  entry k by w[0, k], and then takes, along k, the softmax-weighted sum of these products: it subtracts a shift
  (the maximum of −∞ and the running maximum of the sixteen products from −∞), exponentiates, divides each
  exponential by their sum taken from zero, and sums product × quotient from zero.

  What is shown here, in order:
  * the integer table holds 4·i + k exactly: the largest value, 4·2044 + 15 = 8191, is far below 2³¹, so the
    multiplication and the addition do not wrap, the signed comparison with 0 fails and the select keeps the sum
    (the branch that would add 8192 to a negative index is never taken);
  * the gather at (n, i, k) reads x[n, 4·i + k]: its row coordinate is the offset coordinate n, its column is
    the start index read signed and clamped into [0, 8191], which leaves 4·i + k alone;
  * the product at (n, i, k) is therefore tap k of output (n, i);
  * the shift is a real number when the sixteen taps are: a running maximum from −∞ over real numbers is −∞
    only over the empty set;
  * each later operation read at its index turns the result at (n, i) into the normalized arrangement of the
    taps with that shift, which on real taps and a real shift equals the streaming arrangement that defines
    the specification.
-/
import proofs.«153410_j56564719288842_2_alg».proof.Proof.Gen.ReferenceIdeal.Read
import proofs.«153410_j56564719288842_2_alg».proof.Proof.SoftAvg
import Idealize.ShloMosaic.Lib.ValueIdx
import Idealize.ShloMosaic.Lib.Pipeline.Value
import Idealize.ShloMosaic.PureOps.Ideal.Laws
import Mathlib.Tactic

noncomputable section

open scoped BigOperators

namespace Cert.ReferenceIdeal.RefValue

open Cert.ReferenceIdeal Cert.ReferenceIdeal.Gen Cert.ReferenceIdeal.Read Idealize.ShloMosaic Idealize.ShloMosaic.ValueIdx

variable {F : FTy → Type} [FloatOps F]

/-- In 32-bit words, 4·i + k (i < 2045, k < 16) is computed without wrapping. -/
theorem ofNat_arith (i : Fin 2045) (k : Fin 16) :
    BitVec.ofNat 32 i.val * 4#32 + BitVec.ofNat 32 k.val = BitVec.ofNat 32 (4 * i.val + k.val) := by
  apply BitVec.eq_of_toNat_eq
  have hi := i.isLt
  have hk := k.isLt
  simp only [BitVec.toNat_add, BitVec.toNat_mul, BitVec.toNat_ofNat]
  omega

theorem v8_val (i : Fin 2045) (k : Fin 16) :
    val_main_v8 (F := F) (ix2 i k) = BitVec.ofNat 32 (4 * i.val + k.val) := by
  rw [val_main_v8_apply, val_main_v6_apply, val_main_v3_apply, val_main_v2_apply, val_main_v0_apply, val_main_v1_apply,
    val_main_c_apply, val_main_v7_apply, val_main_v5_apply, val_main_v4_apply]
  exact ofNat_arith i k

/-- The sum 4·i + k, as a 32-bit word, reads back as itself when taken signed: it is below 2³¹. -/
theorem toInt_small (i : Fin 2045) (k : Fin 16) :
    (BitVec.ofNat 32 (4 * i.val + k.val)).toInt = ((4 * i.val + k.val : Nat) : Int) := by
  have hi := i.isLt
  have hk := k.isLt
  rw [BitVec.toInt_eq_toNat_cond, BitVec.toNat_ofNat]
  have : (4 * i.val + k.val) % 2 ^ 32 = 4 * i.val + k.val := Nat.mod_eq_of_lt (by omega)
  rw [this, if_pos (by omega)]

/-- The wrap of a negative index does nothing here: the signed comparison with 0 fails, so the select keeps the sum. -/
theorem v13_val (i : Fin 2045) (k : Fin 16) :
    val_main_v13 (F := F) (ix2 i k) = BitVec.ofNat 32 (4 * i.val + k.val) := by
  rw [val_main_v13_apply, val_main_v10_apply, val_main_v9_apply, val_main_c_0_apply, v8_val]
  have hlt : (BitVec.ofNat 32 (4 * i.val + k.val)).slt 0#32 = false := by
    rw [BitVec.slt, toInt_small]
    exact decide_eq_false (by rw [BitVec.toInt_zero]; omega)
  show Scalar.select (BitVec.ofBool ((BitVec.ofNat 32 (4 * i.val + k.val)).slt 0#32)) _ _ = _
  rw [hlt]
  exact select_zero _ _

theorem v14_val (i : Fin 2045) (k : Fin 16) (z : Fin 1) :
    val_main_v14 (F := F) (ix3 i k z) = BitVec.ofNat 32 (4 * i.val + k.val) := by
  rw [val_main_v14_apply]
  have : idx_main_v14 (ix3 i k z) = ix2 i k := by
    funext a; exact Fin.ext (by match a with | ⟨0, _⟩ => rfl | ⟨1, _⟩ => rfl)
  rw [this, v13_val]

local notation "gd" => gather_S4096x8192_S2045x16x1_S4096x2045x16_0_1_n_n_1_2_40961

/-- The gather read at (n, i, k) is the input at row n, column 4·i + k. On the row axis the start is 0 and the
    offset coordinate is n; on the column axis (collapsed, slice size 1) the start index is the word 4·i + k read
    signed, and clamping it into [0, 8191] leaves it alone. -/
theorem v15_read (x0 : (⟨S4096x8192, .f32⟩ : BufTy).Contents (Elt F)) (n : Fin 4096) (i : Fin 2045) (k : Fin 16) :
    val_main_v15 (F := F) x0 (ix3 n i k) = x0 (ix2 n (⟨4 * i.val + k.val, by omega⟩ : Fin 8192)) := by
  unfold val_main_v15 Host.gather
  congr 1
  funext a
  refine Fin.ext ?_
  match a with
  | ⟨0, _⟩ =>
    show GatherDims.start gd (ix3 n i k) (val_main_v14 (F := F)) 0 + GatherDims.batchCoord gd (ix3 n i k) 0
      + GatherDims.offCoord gd (ix3 n i k) 0 = n.val
    rw [GatherDims.batchCoord_eq_zero _ _ _ List.not_mem_nil]
    have hs : GatherDims.start gd (ix3 n i k) (val_main_v14 (F := F)) 0 = 0 := by
      unfold GatherDims.start; exact dif_neg (by decide)
    have ho : GatherDims.offCoord gd (ix3 n i k) 0 = n.val := by
      unfold GatherDims.offCoord
      rw [dif_pos (by decide)]
      rfl
    rw [hs, ho]
    omega
  | ⟨1, _⟩ =>
    show GatherDims.start gd (ix3 n i k) (val_main_v14 (F := F)) 1 + GatherDims.batchCoord gd (ix3 n i k) 1
      + GatherDims.offCoord gd (ix3 n i k) 1 = 4 * i.val + k.val
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (1 : Fin 2) ∈ GatherDims.startIndexMap gd from List.mem_singleton.mpr rfl)]
    have hsi : GatherDims.siIdx gd (ix3 n i k) ⟨List.idxOf (1 : Fin 2) (GatherDims.startIndexMap gd),
        List.idxOf_lt_length_iff.2 (List.mem_singleton.mpr rfl)⟩ = ix3 i k (0 : Fin 1) := by
      funext b; refine Fin.ext ?_
      match b with
      | ⟨0, _⟩ => rfl
      | ⟨1, _⟩ => rfl
      | ⟨2, _⟩ => rfl
    rw [hsi, v14_val, toInt_small]
    have hi := i.isLt
    have hk := k.isLt
    show min ((4 * i.val + k.val : Nat) : Int).toNat (8192 - 1) = 4 * i.val + k.val
    rw [Int.toNat_natCast]
    omega

/-! ## The window products are the taps -/

open Cert.SoftAvg (tap normalized stream G)

/-- The weight read back through the reshape and the two broadcasts is w[0, k]; with the gather, the product
    at (n, i, k) is tap k of output (n, i). -/
theorem v19_tap (x0 : (⟨S4096x8192, .f32⟩ : BufTy).Contents (Elt Ideal)) (x1 : (⟨S1x16, .f32⟩ : BufTy).Contents (Elt Ideal))
    (n : Fin 4096) (i : Fin 2045) (k : Fin 16) :
    val_main_v19 (F := Ideal) x0 x1 (ix3 n i k) = tap x0 x1 n i k := by
  rw [val_main_v19_apply, v15_read, val_main_v18_apply, val_main_v17_apply, val_main_v16_apply, Ideal.mulf_def]
  have hw : idx_main_v16 (idx_main_v17 (idx_main_v18 (ix3 n i k))) = ix2 (0 : Fin 1) k := by
    funext a; refine Fin.ext ?_
    match a with
    | ⟨0, _⟩ => rfl
    | ⟨1, _⟩ => exact Nat.mod_eq_of_lt k.isLt
  rw [hw]
  rfl

/-! ## The shift is a real number -/

/-- The word 0xFF800000 is −∞. -/
theorem ofBits_neg_inf : Ideal.ofBits .f32 0xFF800000#32 = ⊥ := by simp [Ideal.ofBits, Ideal.ieee]

/-- A running maximum started at −∞ over real entries: −∞ over no entry, a real number over at least one. -/
theorem fold_max_bot_or_real (f : Fin 16 → EReal) (hf : ∀ k, ∃ r : ℝ, f k = (r : EReal)) (s : Finset (Fin 16)) :
    (s = ∅ ∧ s.fold (FloatOps.maximumf (F := Ideal) (φ := .f32)) ⊥ f = ⊥)
      ∨ ∃ μ : ℝ, s.fold (FloatOps.maximumf (F := Ideal) (φ := .f32)) ⊥ f = (μ : EReal) := by
  classical
  induction s using Finset.induction_on with
  | empty => exact Or.inl ⟨rfl, Finset.fold_empty⟩
  | insert a s ha ih =>
    right
    obtain ⟨r, hr⟩ := hf a
    rw [Finset.fold_insert ha, Ideal.maximumf_def, hr]
    rcases ih with ⟨_, h⟩ | ⟨μ, h⟩
    · exact ⟨r, by rw [h]; exact max_eq_left bot_le⟩
    · exact ⟨max r μ, by rw [h]; exact (EReal.coe_strictMono.monotone.map_max (a := r) (b := μ)).symm⟩

/-- The shift of output (n, i) — the maximum of −∞ and the max-reduce of its sixteen products from −∞ — is a real
    number when the sixteen products are. -/
theorem shift_real (x0 : (⟨S4096x8192, .f32⟩ : BufTy).Contents (Elt Ideal)) (x1 : (⟨S1x16, .f32⟩ : BufTy).Contents (Elt Ideal))
    (n : Fin 4096) (i : Fin 2045) (h : ∀ k, ∃ r : ℝ, val_main_v19 (F := Ideal) x0 x1 (ix3 n i k) = (r : EReal)) :
    ∃ μ : ℝ, val_main_v22 (F := Ideal) x0 x1 (ix2 n i) = (μ : EReal) := by
  have hR : S4096x2045x16.Reduces [2] S4096x2045 := by decide
  rw [val_main_v22_apply, val_main_v21_apply, val_main_cst_2_apply]
  unfold val_main_v20
  rw [Host.reduce_eq_fold_single FloatOps.maximumf _ _ reducesTo_S4096x2045x16_S4096x2045_d2 hR h_S_, val_main_cst_apply]
  have hf : (val_main_v19 (F := Ideal) x0 x1 ∘ hR.lift (ix2 n i)) = fun k : Fin 16 => val_main_v19 (F := Ideal) x0 x1 (ix3 n i k) :=
    funext fun k => congrArg (val_main_v19 (F := Ideal) x0 x1)
      (funext fun a => Fin.ext (by match a with | ⟨0, _⟩ => rfl | ⟨1, _⟩ => rfl | ⟨2, _⟩ => rfl))
  rw [Ideal.maximumf_def, Ideal.ofBits_def, ofBits_neg_inf]
  rcases fold_max_bot_or_real _ h Finset.univ with ⟨he, _⟩ | ⟨μ, hμ⟩
  · exact absurd he Finset.univ_nonempty.ne_empty
  · refine ⟨μ, ?_⟩
    have e := (congrArg (fun g => Finset.fold (FloatOps.maximumf (F := Ideal) (φ := .f32)) ⊥ g Finset.univ) hf).trans hμ
    exact (congrArg (max ⊥) e).trans (max_eq_right bot_le)

/-! ## The stages after the products, read at an index -/

section Chain
variable (x0 : (⟨S4096x8192, .f32⟩ : BufTy).Contents (Elt Ideal)) (x1 : (⟨S1x16, .f32⟩ : BufTy).Contents (Elt Ideal))
  (n : Fin 4096) (i : Fin 2045)

/-- The shift broadcast back along the window axis: every k reads the shift of (n, i). -/
theorem v24_read (k : Fin 16) :
    val_main_v24 (F := Ideal) x0 x1 (ix3 n i k) = val_main_v22 (F := Ideal) x0 x1 (ix2 n i) := by
  rw [val_main_v24_apply, val_main_v23_apply]
  exact congrArg (val_main_v22 (F := Ideal) x0 x1)
    (funext fun a => Fin.ext (by match a with | ⟨0, _⟩ => rfl | ⟨1, _⟩ => rfl))

/-- The exponential of tap k less the shift. -/
theorem v26_read (k : Fin 16) :
    val_main_v26 (F := Ideal) x0 x1 (ix3 n i k)
      = Ideal.exp (tap x0 x1 n i k - val_main_v22 (F := Ideal) x0 x1 (ix2 n i)) := by
  rw [val_main_v26_apply, val_main_v25_apply, v19_tap, v24_read, Ideal.hostUnary_exp_def, Ideal.subf_def]

/-- The sum of the sixteen exponentials, taken from zero. -/
theorem v27_read :
    val_main_v27 (F := Ideal) x0 x1 (ix2 n i)
      = 0 + ∑ k : Fin 16, Ideal.exp (tap x0 x1 n i k - val_main_v22 (F := Ideal) x0 x1 (ix2 n i)) := by
  rw [val_main_v27_apply, val_main_cst_3_apply, Ideal.ofBits_def, Ideal.ofBits_zero_f32]
  refine congrArg (0 + ·) (Finset.sum_congr rfl fun k _ => ?_)
  have e : idx_main_v27 (ix2 n i) k = ix3 n i k :=
    funext fun a => Fin.ext (by match a with | ⟨0, _⟩ => rfl | ⟨1, _⟩ => rfl | ⟨2, _⟩ => rfl)
  rw [e, v26_read]

/-- That sum broadcast back along the window axis. -/
theorem v29_read (k : Fin 16) :
    val_main_v29 (F := Ideal) x0 x1 (ix3 n i k) = val_main_v27 (F := Ideal) x0 x1 (ix2 n i) := by
  rw [val_main_v29_apply, val_main_v28_apply]
  exact congrArg (val_main_v27 (F := Ideal) x0 x1)
    (funext fun a => Fin.ext (by match a with | ⟨0, _⟩ => rfl | ⟨1, _⟩ => rfl))

/-- Tap k times its normalized exponential. -/
theorem v31_read (k : Fin 16) :
    val_main_v31 (F := Ideal) x0 x1 (ix3 n i k)
      = tap x0 x1 n i k * Ideal.div (Ideal.exp (tap x0 x1 n i k - val_main_v22 (F := Ideal) x0 x1 (ix2 n i)))
          (0 + ∑ j : Fin 16, Ideal.exp (tap x0 x1 n i j - val_main_v22 (F := Ideal) x0 x1 (ix2 n i))) := by
  rw [val_main_v31_apply, val_main_v30_apply, v19_tap, v26_read, v29_read, v27_read, Ideal.mulf_def, Ideal.hostDivf_def]

/-- The result at (n, i) is the normalized arrangement of its sixteen taps, shifted by the stage-22 value. -/
theorem v32_read :
    val_main_v32 (F := Ideal) x0 x1 (ix2 n i)
      = normalized (tap x0 x1 n i) (val_main_v22 (F := Ideal) x0 x1 (ix2 n i)) := by
  rw [val_main_v32_apply, val_main_cst_4_apply, Ideal.ofBits_def, Ideal.ofBits_zero_f32]
  unfold Cert.SoftAvg.normalized
  refine congrArg (0 + ·) (Finset.sum_congr rfl fun k _ => ?_)
  have e : idx_main_v32 (ix2 n i) k = ix3 n i k :=
    funext fun a => Fin.ext (by match a with | ⟨0, _⟩ => rfl | ⟨1, _⟩ => rfl | ⟨2, _⟩ => rfl)
  rw [e, v31_read]

end Chain

/-! ## The reference computes the specification -/

/-- On finite inputs the reference's result is the streaming average of the sixteen taps at every output. -/
theorem ref_eq_G (x0 : (⟨S4096x8192, .f32⟩ : BufTy).Contents (Elt Ideal)) (x1 : (⟨S1x16, .f32⟩ : BufTy).Contents (Elt Ideal))
    (h0 : ∀ i, ∃ r : ℝ, x0 i = (r : EReal)) (h1 : ∀ i, ∃ r : ℝ, x1 i = (r : EReal)) :
    Cert.ReferenceIdeal.Read.val_main_v32 (F := Ideal) x0 x1 = Cert.SoftAvg.G x0 x1 := by
  funext j
  obtain ⟨n, i, rfl⟩ : ∃ (n : Fin 4096) (i : Fin 2045), j = ix2 n i := ⟨j 0, j 1, eq_ix2 j⟩
  have hρ : ∀ k, ∃ r : ℝ, tap x0 x1 n i k = (r : EReal) := fun k => by
    obtain ⟨a, ha⟩ := h0 (ix2 n (⟨4 * i.val + k.val, by omega⟩ : Fin 8192))
    obtain ⟨b, hb⟩ := h1 (ix2 (0 : Fin 1) k)
    exact ⟨a * b, by unfold Cert.SoftAvg.tap; rw [ha, hb, EReal.coe_mul]⟩
  have hM : ∃ μ : ℝ, val_main_v22 (F := Ideal) x0 x1 (ix2 n i) = (μ : EReal) :=
    shift_real x0 x1 n i fun k => by rw [v19_tap]; exact hρ k
  rw [v32_read, Cert.SoftAvg.normalized_eq_stream _ _ hρ hM]
  rfl

end Cert.ReferenceIdeal.RefValue

end
-- ==== Proof.Finite.lean ====
import proofs.«153410_j56564719288842_2_alg».proof.Pre_finite_inputs
import proofs.«153410_j56564719288842_2_alg».proof.Proof.Gen.Pre_finite_inputs
import Idealize.ShloMosaic.Lib.ReduceAll
import Idealize.ShloMosaic.Lib.ValueIdx
import Idealize.ShloMosaic.PureOps.Ideal.Laws

/-!
# The finiteness precondition, read back at the exact instance

The precondition is the conjunction of two statements "every entry of the array has absolute value strictly
below plus infinity", each written as an all-axes reduction by `and` of an elementwise comparison. Over the
extended reals the absolute value of `a` is `max a (-a)`, the bit pattern `0x7F800000` denotes `⊤`, and the
ordered comparison `<` is the order of `EReal`. Hence the precondition holding says of each entry `a` that
`max a (-a) < ⊤`, which excludes both `⊥` and `⊤` and leaves a real number.
-/

noncomputable section

namespace Cert.Finite

open Idealize.ShloMosaic

/-- The shape of rank zero has a single index: there is no axis on which two indices could differ. -/
instance : Subsingleton Cert.Pre_finite_inputs.S_.Idx := ⟨fun a b => funext fun d => d.elim0⟩

/-- A one-bit word built from a Boolean is `1` exactly when the Boolean is `true`. -/
theorem ofBool_eq_one {b : Bool} : BitVec.ofBool b = 1#1 ↔ b = true := by cases b <;> decide

/-- An extended real whose absolute value `max a (-a)` is strictly below `⊤` is a real number:
    at `⊥` the negation is `⊤`, at `⊤` the number itself is, and in both cases the maximum is `⊤`. -/
theorem real_of_abs_lt_top (a : EReal) (h : max a (-a) < ⊤) : ∃ r : ℝ, a = (r : EReal) := by
  induction a using EReal.rec with
  | bot => simp at h
  | coe r => exact ⟨r, rfl⟩
  | top => simp at h

/-- The elementwise test of the precondition at one entry `a`: the ordered comparison "less than" of the
    absolute value of `a` against the number the pattern `0x7F800000` denotes. That pattern is `⊤`, so the
    test being `1` says `max a (-a) < ⊤`, and `a` is real. -/
theorem real_of_test (a : Ideal .f32)
    (h : FloatOps.cmpf .olt (FloatOps.hostAbsf a) (FloatOps.ofBits (F := Ideal) .f32 0x7F800000#32) = 1#1) :
    ∃ r : ℝ, a = (r : EReal) := by
  have htop : Ideal.ofBits .f32 0x7F800000#32 = ⊤ := by simp [Ideal.ofBits, Ideal.ieee]
  rw [Ideal.hostAbsf_def, Ideal.ofBits_def, htop, Ideal.cmpf_def, Ideal.absf_def] at h
  simp only [Ideal.cmp, ofBool_eq_one, decide_eq_true_eq] at h
  exact real_of_abs_lt_top a h

/-- The precondition holding at the exact instance makes every entry of both argument arrays a real number.
    The value of the predicate at the single index of its rank-zero result is the `and` of the two reductions;
    each reduction over all axes being `1` gives the elementwise test `1` at every index; the broadcast of the
    rank-zero constant reads that constant wherever it is read. -/
theorem real_of_pre [Cert.Pre_finite_inputs.Facts] (x0 : FVec Ideal Cert.Pre_finite_inputs.S4096x8192 .f32)
    (x1 : FVec Ideal Cert.Pre_finite_inputs.S1x16 .f32)
    (h : Cert.Pre_finite_inputs.fn (F := Ideal) x0 x1 = (fun _ => 1#1)) :
    (∀ i, ∃ r : ℝ, x0 i = (r : EReal)) ∧ (∀ i, ∃ r : ℝ, x1 i = (r : EReal)) := by
  have h0 := congrFun h ValueIdx.ix0
  dsimp only [Cert.Pre_finite_inputs.fn, andi] at h0
  obtain ⟨ha, hb⟩ := IntOp.andi_eq_one.1 h0
  refine ⟨fun i => ?_, fun i => ?_⟩
  · exact real_of_test (x0 i) (Host.reduce_andi_all _ _ _ _ _ ha i)
  · exact real_of_test (x1 i) (Host.reduce_andi_all _ _ _ _ _ hb i)

end Cert.Finite

end
-- ==== Proof.lean ====
/-
  The kernel computes, for an input x of shape [4096, 8192] and a weight row w of shape [1, 16], the array
  out[n, i] (i < 2045) = the softmax-weighted mean of the sixteen taps ρₖ = x[n, 4·i + k] · w[0, k]:

      out[n, i] = (∑ₖ ρₖ·e^{ρₖ}) / (∑ₖ e^{ρₖ}).

  The kernel reaches it by a streaming recurrence over the taps (a running maximum, and two sums rescaled whenever
  the maximum moves), reading the taps as contiguous pieces of a de-interleaved copy of x; the reference gathers the
  windows x[n, 4·i + k], and applies the normalized softmax (subtract the maximum, exponentiate, divide by the sum)
  before the weighted sum. Read over the extended reals with exact operations, both are one function of the two
  argument arrays wherever every input is a real number — which the precondition says — because
  e^{a}·e^{b} = e^{a+b} lets the common factor e^{−maximum} cancel from the quotient (SoftAvg.lean).

  The parts: SoftAvg.lean (the two arrangements and the law between them, and the specification `G`),
  KernelPay.lean (the kernel body's stored value at one entry), KernelBlocks.lean (from the blocks written back to
  the whole result array: the kernel's run ends at `G`), RefValue.lean (the reference's result is `G` on real
  inputs), Finite.lean (the precondition makes every input a real number). The three programs' termination and
  the unchanged arguments are the generated frame runs; the idealized kernel is the kernel's own text read exactly,
  so nothing is owed for the idealization.
-/
import proofs.«153410_j56564719288842_2_alg».proof.Defs
import proofs.«153410_j56564719288842_2_alg».proof.Proof.Gen.Kernel
import proofs.«153410_j56564719288842_2_alg».proof.Proof.Gen.Kernel.Skeleton
import proofs.«153410_j56564719288842_2_alg».proof.Proof.Gen.Kernel.Launch
import proofs.«153410_j56564719288842_2_alg».proof.Proof.Gen.Kernel.Points
import proofs.«153410_j56564719288842_2_alg».proof.Proof.Gen.Kernel.Frame
import proofs.«153410_j56564719288842_2_alg».proof.Proof.Gen.KernelIdeal
import proofs.«153410_j56564719288842_2_alg».proof.Proof.Gen.KernelIdeal.Skeleton
import proofs.«153410_j56564719288842_2_alg».proof.Proof.Gen.KernelIdeal.Launch
import proofs.«153410_j56564719288842_2_alg».proof.Proof.Gen.KernelIdeal.Points
import proofs.«153410_j56564719288842_2_alg».proof.Proof.Gen.KernelIdeal.Frame
import proofs.«153410_j56564719288842_2_alg».proof.Proof.Gen.ReferenceIdeal
import proofs.«153410_j56564719288842_2_alg».proof.Proof.Gen.Pre_finite_inputs
import proofs.«153410_j56564719288842_2_alg».proof.Proof.Gen.KernelIdeal.Value
import proofs.«153410_j56564719288842_2_alg».proof.Proof.Gen.ReferenceIdeal.Run
import proofs.«153410_j56564719288842_2_alg».proof.Proof.Gen.ReferenceIdeal.Read
import proofs.«153410_j56564719288842_2_alg».proof.Proof.SoftAvg
import proofs.«153410_j56564719288842_2_alg».proof.Proof.KernelPay
import proofs.«153410_j56564719288842_2_alg».proof.Proof.KernelBlocks
import proofs.«153410_j56564719288842_2_alg».proof.Proof.RefValue
import proofs.«153410_j56564719288842_2_alg».proof.Proof.Finite
import Idealize.ShloMosaic.Adequacy
import Idealize.ShloMosaic.Init

noncomputable section

namespace Cert.Proof

open Idealize.ShloMosaic Idealize.ShloMosaic.TcCoe Idealize.SL.Sem

/-- The kernel as printed runs, and leaves its arguments as they were. -/
theorem frame_k : Cert.frame_Kernel := fun m ρ _ => Cert.Kernel.Gen.frame m ρ

/-- The kernel read exactly runs, and leaves its arguments as they were. -/
theorem frame_ki : Cert.frame_KernelIdeal := fun m ρ _ => Cert.KernelIdeal.Gen.frame m ρ

/-- The reference runs, and leaves its arguments as they were: its run, with the result forgotten. -/
theorem frame_ri : Cert.frame_ReferenceIdeal := fun m ρ _ =>
  (θ_run Cert.ReferenceIdeal.defs _ _).mono (fun _ h c => (h c).2) (Cert.ReferenceIdeal.Value.run (F := Ideal) m ρ)

/-- Both programs, from memories that agree on the arguments, end with the same result array: the kernel's is the
    specified function of the arguments on any input; the reference's is that function when every input is a real
    number, which the precondition gives. -/
theorem algebraic : Cert.algebraic_KernelIdeal_ReferenceIdeal := by
  intro m ρ m' ρ' hpre hagree
  refine ⟨_, Cert.KernelIdeal.Blocks.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1⟩ := Cert.Finite.real_of_pre _ _ (hpre c)
  rw [Cert.ReferenceIdeal.Read.val_main_v32_eq, (hagree c).1, (hagree c).2]
  exact Cert.ReferenceIdeal.RefValue.ref_eq_G _ _ h0 h1

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
